-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x20 : Shape := ⟨2, ![100000, 20]⟩
abbrev S2x3200000 : Shape := ⟨2, ![2, 3200000]⟩
abbrev S16x20 : Shape := ⟨2, ![16, 20]⟩
abbrev S16 : Shape := ⟨1, ![16]⟩
abbrev S1x16 : Shape := ⟨2, ![1, 16]⟩
abbrev S1 : Shape := ⟨1, ![1]⟩
abbrev S_ : Shape := ⟨0, ![]⟩

class Facts : Prop where
  bcast_S_S100000x20 : S_.BroadcastsInDim S100000x20 (![] : Fin 0 → Fin S100000x20.rank)
  reducesTo_S100000x20_S_d0_1 : S100000x20.ReducesTo [0, 1] S_
  h_S_ : 0 < S_.numel
  bcast_S_S16x20 : S_.BroadcastsInDim S16x20 (![] : Fin 0 → Fin S16x20.rank)
  reducesTo_S16x20_S_d0_1 : S16x20.ReducesTo [0, 1] S_
  bcast_S_S16 : S_.BroadcastsInDim S16 (![] : Fin 0 → Fin S16.rank)
  reducesTo_S16_S_d0 : S16.ReducesTo [0] S_
  bcast_S_S1x16 : S_.BroadcastsInDim S1x16 (![] : Fin 0 → Fin S1x16.rank)
  reducesTo_S1x16_S_d0_1 : S1x16.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1x16 .f32) (main_arg6 : FVec F S1 .f32) (main_arg7 : FVec F S1x16 .f32) (main_v13 : IVec S_ 1) (main_v16 : IVec S16x20 1) : IVec S_ 1 :=
  let main_c_5 : IVec S_ 1 := constantI S_ 1 1#1
  let main_v17 : IVec S_ 1 := (fun x v => Host.reduce IntOp.andi x v reducesTo_S16x20_S_d0_1 h_S_) main_v16 main_c_5
  let main_v18 : IVec S_ 1 := andi main_v13 main_v17
  let main_v19 : FVec F S1x16 .f32 := Host.absf main_arg5
  let main_cst_6 : FVec F S_ .f32 := constant S_ .f32 0x7F800000#32
  let main_v20 : FVec F S1x16 .f32 := broadcastInDim S1x16 ![] bcast_S_S1x16 main_cst_6
  let main_v21 : IVec S1x16 1 := cmpf .olt main_v19 main_v20
  let main_c_7 : IVec S_ 1 := constantI S_ 1 1#1
  let main_v22 : IVec S_ 1 := (fun x v => Host.reduce IntOp.andi x v reducesTo_S1x16_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S1x16 .f32 := Host.absf main_arg7
  let main_cst_10 : FVec F S_ .f32 := constant S_ .f32 0x7F800000#32
  let main_v30 : FVec F S1x16 .f32 := broadcastInDim S1x16 ![] bcast_S_S1x16 main_cst_10
  let main_v31 : IVec S1x16 1 := cmpf .olt main_v29 main_v30
  let main_c_11 : IVec S_ 1 := constantI S_ 1 1#1
  let main_v32 : IVec S_ 1 := (fun x v => Host.reduce IntOp.andi x v reducesTo_S1x16_S_d0_1 h_S_) main_v31 main_c_11
  let main_v33 : IVec S_ 1 := andi main_v28 main_v32
  main_v33

def fn {F : FTy → Type} [FloatOps F] (main_arg0 : FVec F S100000x20 .f32) (main_arg1 : IVec S2x3200000 32) (main_arg2 : FVec F S16x20 .f32) (main_arg3 : FVec F S16 .f32) (main_arg4 : FVec F S16x20 .f32) (main_arg5 : FVec F S1x16 .f32) (main_arg6 : FVec F S1 .f32) (main_arg7 : FVec F S1x16 .f32) : IVec S_ 1 :=
  let main_v0 : FVec F S100000x20 .f32 := Host.absf main_arg0
  let main_cst : FVec F S_ .f32 := constant S_ .f32 0x7F800000#32
  let main_v1 : FVec F S100000x20 .f32 := broadcastInDim S100000x20 ![] bcast_S_S100000x20 main_cst
  let main_v2 : IVec S100000x20 1 := cmpf .olt main_v0 main_v1
  let main_c : IVec S_ 1 := constantI S_ 1 1#1
  let main_v3 : IVec S_ 1 := (fun x v => Host.reduce IntOp.andi x v reducesTo_S100000x20_S_d0_1 h_S_) main_v2 main_c
  let main_v4 : FVec F S16x20 .f32 := Host.absf main_arg2
  let main_cst_0 : FVec F S_ .f32 := constant S_ .f32 0x7F800000#32
  let main_v5 : FVec F S16x20 .f32 := broadcastInDim S16x20 ![] bcast_S_S16x20 main_cst_0
  let main_v6 : IVec S16x20 1 := cmpf .olt main_v4 main_v5
  let main_c_1 : IVec S_ 1 := constantI S_ 1 1#1
  let main_v7 : IVec S_ 1 := (fun x v => Host.reduce IntOp.andi x v reducesTo_S16x20_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x20 .f32 := Host.absf main_arg4
  let main_cst_4 : FVec F S_ .f32 := constant S_ .f32 0x7F800000#32
  let main_v15 : FVec F S16x20 .f32 := broadcastInDim S16x20 ![] bcast_S_S16x20 main_cst_4
  let main_v16 : IVec S16x20 1 := cmpf .olt main_v14 main_v15
  fn_part1 (F := F) main_arg5 main_arg6 main_arg7 main_v13 main_v16
-- ==== Kernel.lean ====
abbrev S100000x20 : Shape := ⟨2, ![100000, 20]⟩
abbrev S2x3200000 : Shape := ⟨2, ![2, 3200000]⟩
abbrev S16x20 : Shape := ⟨2, ![16, 20]⟩
abbrev S16 : Shape := ⟨1, ![16]⟩
abbrev S1x16 : Shape := ⟨2, ![1, 16]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x20 : Shape := ⟨2, ![3200000, 20]⟩
abbrev S100000x16 : Shape := ⟨2, ![100000, 16]⟩
abbrev S10000x20 : Shape := ⟨2, ![10000, 20]⟩
abbrev S10000x16 : Shape := ⟨2, ![10000, 16]⟩
abbrev S20x16 : Shape := ⟨2, ![20, 16]⟩
abbrev S3200000x16 : Shape := ⟨2, ![3200000, 16]⟩
abbrev S100000x1 : Shape := ⟨2, ![100000, 1]⟩
abbrev S10000x1 : Shape := ⟨2, ![10000, 1]⟩
abbrev S16x1 : Shape := ⟨2, ![16, 1]⟩
abbrev S1x1 : Shape := ⟨2, ![1, 1]⟩

abbrev nBuf : Space → Nat
  | .hbm => 40
  | .vmem => 18
  | .smem => 0
  | _ => 0

abbrev bufTy : (tb : Table) → Fin (tcTables nBuf tb) → BufTy
  | .hbm, ⟨0, _⟩ => ⟨S100000x20, .f32⟩
  | .hbm, ⟨1, _⟩ => ⟨S2x3200000, .i32⟩
  | .hbm, ⟨2, _⟩ => ⟨S16x20, .f32⟩
  | .hbm, ⟨3, _⟩ => ⟨S16, .f32⟩
  | .hbm, ⟨4, _⟩ => ⟨S16x20, .f32⟩
  | .hbm, ⟨5, _⟩ => ⟨S1x16, .f32⟩
  | .hbm, ⟨6, _⟩ => ⟨S1, .f32⟩
  | .hbm, ⟨7, _⟩ => ⟨S1x16, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S_, .i32⟩
  | .hbm, ⟨13, _⟩ => ⟨S3200000, .i32⟩
  | .hbm, ⟨14, _⟩ => ⟨S3200000, .i1⟩
  | .hbm, ⟨15, _⟩ => ⟨S_, .i32⟩
  | .hbm, ⟨16, _⟩ => ⟨S3200000, .i32⟩
  | .hbm, ⟨17, _⟩ => ⟨S3200000, .i32⟩
  | .hbm, ⟨18, _⟩ => ⟨S3200000, .i32⟩
  | .hbm, ⟨19, _⟩ => ⟨S3200000x1, .i32⟩
  | .hbm, ⟨20, _⟩ => ⟨S3200000x20, .f32⟩
  | .hbm, ⟨21, _⟩ => ⟨S_, .f32⟩
  | .hbm, ⟨22, _⟩ => ⟨S100000x20, .f32⟩
  | .hbm, ⟨23, _⟩ => ⟨S3200000x1, .i32⟩
  | .hbm, ⟨24, _⟩ => ⟨S100000x20, .f32⟩
  | .hbm, ⟨25, _⟩ => ⟨S100000x16, .f32⟩
  | .hbm, ⟨26, _⟩ => ⟨S_, .i32⟩
  | .hbm, ⟨27, _⟩ => ⟨S3200000, .i32⟩
  | .hbm, ⟨28, _⟩ => ⟨S3200000, .i1⟩
  | .hbm, ⟨29, _⟩ => ⟨S_, .i32⟩
  | .hbm, ⟨30, _⟩ => ⟨S3200000, .i32⟩
  | .hbm, ⟨31, _⟩ => ⟨S3200000, .i32⟩
  | .hbm, ⟨32, _⟩ => ⟨S3200000, .i32⟩
  | .hbm, ⟨33, _⟩ => ⟨S3200000x1, .i32⟩
  | .hbm, ⟨34, _⟩ => ⟨S3200000x16, .f32⟩
  | .hbm, ⟨35, _⟩ => ⟨S_, .f32⟩
  | .hbm, ⟨36, _⟩ => ⟨S100000x16, .f32⟩
  | .hbm, ⟨37, _⟩ => ⟨S3200000x1, .i32⟩
  | .hbm, ⟨38, _⟩ => ⟨S100000x16, .f32⟩
  | .hbm, ⟨39, _⟩ => ⟨S100000x1, .f32⟩
  | .local _ .vmem, ⟨0, _⟩ => ⟨S10000x20, .f32⟩
  | .local _ .vmem, ⟨1, _⟩ => ⟨S10000x20, .f32⟩
  | .local _ .vmem, ⟨2, _⟩ => ⟨S10000x20, .f32⟩
  | .local _ .vmem, ⟨3, _⟩ => ⟨S10000x20, .f32⟩
  | .local _ .vmem, ⟨4, _⟩ => ⟨S16x20, .f32⟩
  | .local _ .vmem, ⟨5, _⟩ => ⟨S16, .f32⟩
  | .local _ .vmem, ⟨6, _⟩ => ⟨S16x20, .f32⟩
  | .local _ .vmem, ⟨7, _⟩ => ⟨S10000x16, .f32⟩
  | .local _ .vmem, ⟨8, _⟩ => ⟨S10000x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S10000x16, .f32⟩
  | .local _ .vmem, ⟨13, _⟩ => ⟨S1x16, .f32⟩
  | .local _ .vmem, ⟨14, _⟩ => ⟨S1, .f32⟩
  | .local _ .vmem, ⟨15, _⟩ => ⟨S1x16, .f32⟩
  | .local _ .vmem, ⟨16, _⟩ => ⟨S10000x1, .f32⟩
  | .local _ .vmem, ⟨17, _⟩ => ⟨S10000x1, .f32⟩
  | _, _ => ⟨S100000x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x20 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x20 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x20 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x20 : S_.BroadcastsInDim S100000x20 (![] : Fin 0 → Fin S100000x20.rank)
  inb_S10000x20_S10000x20_0_0 : ∀ a, (![0, 0] : Fin 2 → Nat) a + S10000x20.size a ≤ S10000x20.size a
  h_S10000x20 : 0 < S10000x20.numel
  shapeCasts_S10000x20_S10000x20 : S10000x20.ShapeCasts S10000x20
  bitsLt_bf16_f32 : FTy.bits .bf16 < FTy.bits .f32
  inb_S16x20_S16x20_0_0 : ∀ a, (![0, 0] : Fin 2 → Nat) a + S16x20.size a ≤ S16x20.size a
  h_S16x20 : 0 < S16x20.numel
  inb_S16_S16_0 : ∀ a, (![0] : Fin 1 → Nat) a + S16.size a ≤ S16.size a
  h_S16 : 0 < S16.numel
  transposes_S16x20_p1_0_S20x16 : S16x20.Transposes [1, 0] S20x16
  shapeCasts_S16_S1x16 : S16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  bcast_S_S100000x16 : S_.BroadcastsInDim S100000x16 (![] : Fin 0 → Fin S100000x16.rank)
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  inb_S1_S1_0 : ∀ a, (![0] : Fin 1 → Nat) a + S1.size a ≤ S1.size a
  h_S1 : 0 < S1.numel
  transposes_S1x16_p1_0_S16x1 : S1x16.Transposes [1, 0] S16x1
  shapeCasts_S1_S1x1 : S1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  gather_S100000x20_S3200000x1_S3200000x20_1_0_n_n_0_1_120_wf : GatherDims.WF S100000x20 S3200000x1 S3200000x20 [1] [0] [] [0] [] 1 ![1, 20]
  scatter_S100000x20_S3200000x1_S3200000x20_1_0_0_1_wf : ScatterDims.WF S100000x20 S3200000x1 S3200000x20 [1] [0] [0] 1
  dot_S10000x20_S20x16_S10000x16_1_0_0_1_n_n_wf : DotDims.WF S10000x20 S20x16 S10000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S10000x16_S16x1_S10000x1_1_0_0_1_n_n_wf : DotDims.WF S10000x16 S16x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x20.size a ≤ S100000x20.size a
  hwx0_0 : ∀ i : grid0.Coords, EltTy.bits .f32 = 32 ∨ (Rect.block (s := S100000x20) S10000x20.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x20.size a ≤ S100000x20.size a
  hwx0_1 : ∀ i : grid0.Coords, EltTy.bits .f32 = 32 ∨ (Rect.block (s := S100000x20) S10000x20.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x20.size a ≤ S16x20.size a
  hwx0_2 : ∀ i : grid0.Coords, EltTy.bits .f32 = 32 ∨ (Rect.block (s := S16x20) S16x20.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16.size a ≤ S16.size a
  hwx0_3 : ∀ i : grid0.Coords, EltTy.bits .f32 = 32 ∨ (Rect.block (s := S16) S16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x20.size a ≤ S16x20.size a
  hwx0_4 : ∀ i : grid0.Coords, EltTy.bits .f32 = 32 ∨ (Rect.block (s := S16x20) S16x20.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x16.size a ≤ S100000x16.size a
  hwx0_5 : ∀ i : grid0.Coords, EltTy.bits .f32 = 32 ∨ (Rect.block (s := S100000x16) S10000x16.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S100000x16.size a
  hwx1_1 : ∀ i : grid1.Coords, EltTy.bits .f32 = 32 ∨ (Rect.block (s := S100000x16) S10000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1.size a ≤ S1.size a
  hwx1_3 : ∀ i : grid1.Coords, EltTy.bits .f32 = 32 ∨ (Rect.block (s := S1) S1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x1.size a ≤ S100000x1.size a
  hwx1_5 : ∀ i : grid1.Coords, EltTy.bits .f32 = 32 ∨ (Rect.block (s := S100000x1) S10000x1.size (cc1_transform_5 i) (hinb1_5 i)).WholeWords (EltTy.packing .f32)

variable [Facts₀]

def gather_S100000x20_S3200000x1_S3200000x20_1_0_n_n_0_1_120 : GatherDims S100000x20 S3200000x1 S3200000x20 where
  offsetDims := [1]
  collapsedSliceDims := [0]
  operandBatchingDims := []
  startIndicesBatchingDims := []
  startIndexMap := [0]
  indexVectorDim := 1
  sliceSizes := ![1, 20]
  wf := gather_S100000x20_S3200000x1_S3200000x20_1_0_n_n_0_1_120_wf
def scatter_S100000x20_S3200000x1_S3200000x20_1_0_0_1 : ScatterDims S100000x20 S3200000x1 S3200000x20 where
  updateWindowDims := [1]
  insertedWindowDims := [0]
  scatterDimsToOperandDims := [0]
  indexVectorDim := 1
  wf := scatter_S100000x20_S3200000x1_S3200000x20_1_0_0_1_wf
def dot_S10000x20_S20x16_S10000x16_1_0_0_1_n_n : DotDims S10000x20 S20x16 S10000x16 where
  lhsContracting := [1]
  rhsContracting := [0]
  lhsNonContracting := [0]
  rhsNonContracting := [1]
  lhsBatch := []
  rhsBatch := []
  wf := dot_S10000x20_S20x16_S10000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S10000x16_S16x1_S10000x1_1_0_0_1_n_n : DotDims S10000x16 S16x1 S10000x1 where
  lhsContracting := [1]
  rhsContracting := [0]
  lhsNonContracting := [0]
  rhsNonContracting := [1]
  lhsBatch := []
  rhsBatch := []
  wf := dot_S10000x16_S16x1_S10000x1_1_0_0_1_n_n_wf

abbrev win0_0 : Pipeline.Window sig grid0 :=
  Pipeline.Window.ofSpec (Memref.whole main_v13) S10000x20.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x20.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x20.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x20.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S10000x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v24) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S10000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S10000x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x20 : Shape := ⟨2, ![100000, 20]⟩
abbrev S2x3200000 : Shape := ⟨2, ![2, 3200000]⟩
abbrev S16x20 : Shape := ⟨2, ![16, 20]⟩
abbrev S16 : Shape := ⟨1, ![16]⟩
abbrev S1x16 : Shape := ⟨2, ![1, 16]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x20 : Shape := ⟨2, ![3200000, 20]⟩
abbrev S20x16 : Shape := ⟨2, ![20, 16]⟩
abbrev S100000x16 : Shape := ⟨2, ![100000, 16]⟩
abbrev S3200000x16 : Shape := ⟨2, ![3200000, 16]⟩
abbrev S16x1 : Shape := ⟨2, ![16, 1]⟩
abbrev S100000x1 : Shape := ⟨2, ![100000, 1]⟩
abbrev S1x1 : Shape := ⟨2, ![1, 1]⟩

abbrev nBuf : Space → Nat
  | .hbm => 57
  | .vmem => 0
  | .smem => 0
  | _ => 0

abbrev bufTy : (tb : Table) → Fin (tcTables nBuf tb) → BufTy
  | .hbm, ⟨0, _⟩ => ⟨S100000x20, .f32⟩
  | .hbm, ⟨1, _⟩ => ⟨S2x3200000, .i32⟩
  | .hbm, ⟨2, _⟩ => ⟨S16x20, .f32⟩
  | .hbm, ⟨3, _⟩ => ⟨S16, .f32⟩
  | .hbm, ⟨4, _⟩ => ⟨S16x20, .f32⟩
  | .hbm, ⟨5, _⟩ => ⟨S1x16, .f32⟩
  | .hbm, ⟨6, _⟩ => ⟨S1, .f32⟩
  | .hbm, ⟨7, _⟩ => ⟨S1x16, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S_, .i32⟩
  | .hbm, ⟨13, _⟩ => ⟨S3200000, .i32⟩
  | .hbm, ⟨14, _⟩ => ⟨S3200000, .i1⟩
  | .hbm, ⟨15, _⟩ => ⟨S_, .i32⟩
  | .hbm, ⟨16, _⟩ => ⟨S3200000, .i32⟩
  | .hbm, ⟨17, _⟩ => ⟨S3200000, .i32⟩
  | .hbm, ⟨18, _⟩ => ⟨S3200000, .i32⟩
  | .hbm, ⟨19, _⟩ => ⟨S3200000x1, .i32⟩
  | .hbm, ⟨20, _⟩ => ⟨S3200000x20, .f32⟩
  | .hbm, ⟨21, _⟩ => ⟨S_, .f32⟩
  | .hbm, ⟨22, _⟩ => ⟨S100000x20, .f32⟩
  | .hbm, ⟨23, _⟩ => ⟨S3200000x1, .i32⟩
  | .hbm, ⟨24, _⟩ => ⟨S100000x20, .f32⟩
  | .hbm, ⟨25, _⟩ => ⟨S20x16, .f32⟩
  | .hbm, ⟨26, _⟩ => ⟨S100000x16, .f32⟩
  | .hbm, ⟨27, _⟩ => ⟨S1x16, .f32⟩
  | .hbm, ⟨28, _⟩ => ⟨S100000x16, .f32⟩
  | .hbm, ⟨29, _⟩ => ⟨S100000x16, .f32⟩
  | .hbm, ⟨30, _⟩ => ⟨S20x16, .f32⟩
  | .hbm, ⟨31, _⟩ => ⟨S100000x16, .f32⟩
  | .hbm, ⟨32, _⟩ => ⟨S100000x16, .f32⟩
  | .hbm, ⟨33, _⟩ => ⟨S_, .f32⟩
  | .hbm, ⟨34, _⟩ => ⟨S100000x16, .f32⟩
  | .hbm, ⟨35, _⟩ => ⟨S100000x16, .f32⟩
  | .hbm, ⟨36, _⟩ => ⟨S_, .i32⟩
  | .hbm, ⟨37, _⟩ => ⟨S3200000, .i32⟩
  | .hbm, ⟨38, _⟩ => ⟨S3200000, .i1⟩
  | .hbm, ⟨39, _⟩ => ⟨S_, .i32⟩
  | .hbm, ⟨40, _⟩ => ⟨S3200000, .i32⟩
  | .hbm, ⟨41, _⟩ => ⟨S3200000, .i32⟩
  | .hbm, ⟨42, _⟩ => ⟨S3200000, .i32⟩
  | .hbm, ⟨43, _⟩ => ⟨S3200000x1, .i32⟩
  | .hbm, ⟨44, _⟩ => ⟨S3200000x16, .f32⟩
  | .hbm, ⟨45, _⟩ => ⟨S_, .f32⟩
  | .hbm, ⟨46, _⟩ => ⟨S100000x16, .f32⟩
  | .hbm, ⟨47, _⟩ => ⟨S3200000x1, .i32⟩
  | .hbm, ⟨48, _⟩ => ⟨S100000x16, .f32⟩
  | .hbm, ⟨49, _⟩ => ⟨S16x1, .f32⟩
  | .hbm, ⟨50, _⟩ => ⟨S100000x1, .f32⟩
  | .hbm, ⟨51, _⟩ => ⟨S1x1, .f32⟩
  | .hbm, ⟨52, _⟩ => ⟨S100000x1, .f32⟩
  | .hbm, ⟨53, _⟩ => ⟨S100000x1, .f32⟩
  | .hbm, ⟨54, _⟩ => ⟨S16x1, .f32⟩
  | .hbm, ⟨55, _⟩ => ⟨S100000x1, .f32⟩
  | .hbm, ⟨56, _⟩ => ⟨S100000x1, .f32⟩
  | _, _ => ⟨S100000x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_c_1 : Ref sig .tc := ⟨.hbm, 36, rfl⟩
abbrev main_v23 : Ref sig .tc := ⟨.hbm, 37, rfl⟩
abbrev main_v24 : Ref sig .tc := ⟨.hbm, 38, rfl⟩
abbrev main_c_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x20 : S_.BroadcastsInDim S100000x20 (![] : Fin 0 → Fin S100000x20.rank)
  transposes_S16x20_S20x16_1_0 : S16x20.Transposes [1, 0] S20x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  transposes_S1x16_S16x1_1_0 : S1x16.Transposes [1, 0] S16x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x20_S3200000x1_S3200000x20_1_0_n_n_0_1_120_wf : GatherDims.WF S100000x20 S3200000x1 S3200000x20 [1] [0] [] [0] [] 1 ![1, 20]
  scatter_S100000x20_S3200000x1_S3200000x20_1_0_0_1_wf : ScatterDims.WF S100000x20 S3200000x1 S3200000x20 [1] [0] [0] 1
  dot_S100000x20_S20x16_S100000x16_1_0_0_1_n_n_wf : DotDims.WF S100000x20 S20x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x1_S100000x1_1_0_0_1_n_n_wf : DotDims.WF S100000x16 S16x1 S100000x1 [1] [0] [0] [1] [] []

variable [Facts₀]

def gather_S100000x20_S3200000x1_S3200000x20_1_0_n_n_0_1_120 : GatherDims S100000x20 S3200000x1 S3200000x20 where
  offsetDims := [1]
  collapsedSliceDims := [0]
  operandBatchingDims := []
  startIndicesBatchingDims := []
  startIndexMap := [0]
  indexVectorDim := 1
  sliceSizes := ![1, 20]
  wf := gather_S100000x20_S3200000x1_S3200000x20_1_0_n_n_0_1_120_wf
def scatter_S100000x20_S3200000x1_S3200000x20_1_0_0_1 : ScatterDims S100000x20 S3200000x1 S3200000x20 where
  updateWindowDims := [1]
  insertedWindowDims := [0]
  scatterDimsToOperandDims := [0]
  indexVectorDim := 1
  wf := scatter_S100000x20_S3200000x1_S3200000x20_1_0_0_1_wf
def dot_S100000x20_S20x16_S100000x16_1_0_0_1_n_n : DotDims S100000x20 S20x16 S100000x16 where
  lhsContracting := [1]
  rhsContracting := [0]
  lhsNonContracting := [0]
  rhsNonContracting := [1]
  lhsBatch := []
  rhsBatch := []
  wf := dot_S100000x20_S20x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf

class Facts : Prop extends Facts₀ where

variable [Facts]
-- ==== Proof.KernelRun.lean ====
/-
  The idealized kernel's run with its result array named.

  The program is four segments: host operations (the first neighbour aggregation), the first affine layer's
  pipelined call, host operations again (the second aggregation, reading the first layer's output), and the
  second layer's call. Every weakly fair execution ends with each unscoped buffer holding what the fold of these
  segments over the launch memory leaves there; read at the result buffer this is the second call's output array
  after its last write-back, and read at an argument it is the launch contents.
-/
import proofs.«115870_j17781164605885_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's
    contents and the arguments as launched. -/
theorem run : θ_run defs (onTc (τ := τ) (main (F := F))) ⟨m, fun _ => 0, ρ⟩ (fun r => ∀ c : Dev nD,
      r.2.mem ((c.tc : Thread nD τ).loc main_v25) = W4 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v25 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Named

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.LibLayerOps.lean ====
/-
  The operations of a dense layer read at one entry, on the extended reals (general lemmas: any extents).

  * a product against a weight matrix that is TRANSPOSED FIRST, as an operation of its own, and then multiplied
    plainly (x · Wᵀ with W of shape N×K): entry (p, c) is Σ_q x[p, q] · W[c, q] — for the vector unit's matmul into
    a zero accumulator and for the host's dot_general alike;
  * a bias vector of length C laid out as a 1×C row and repeated down the rows, by either spelling (a shape cast
    followed by a broadcast; two broadcasts by dimension map): entry (p, c) is the bias's entry c — for every C,
    the one-column case C = 1 included (there the row's only coordinate is 0, which is what a unit axis is read at).
-/
import proofs.«115870_j17781164605885_2_alg».proof.Proof.LibPlainDot
import Idealize.ShloMosaic.Lib.ValueLayout
import Idealize.ShloMosaic.Lib.Pipeline.Value

noncomputable section

open scoped BigOperators

namespace Cert.LayerOps

open Idealize.ShloMosaic Idealize.ShloMosaic.ValueIdx

variable {M K N : Nat} {d : DotDims ⟨2, ![M, K]⟩ ⟨2, ![K, N]⟩ ⟨2, ![M, N]⟩}

/-- The vector unit's product against a transposed weight matrix, into a zero accumulator, at entry (p, c). -/
theorem matmul_transposed_apply (h : PlainDot.IsPlain d) (prec : Option ContractPrecision) {φ₁ φ₂ : FTy}
    (l : FVec Ideal ⟨2, ![M, K]⟩ φ₁) (w : FVec Ideal ⟨2, ![N, K]⟩ φ₂)
    (ht : (⟨2, ![N, K]⟩ : Shape).Transposes [1, 0] ⟨2, ![K, N]⟩) (p : Fin M) (c : Fin N) :
    matmul d prec l (transpose ⟨2, ![K, N]⟩ [1, 0] w ht) (constant ⟨2, ![M, N]⟩ .f32 0x00000000#32) (ix2 p c)
      = ∑ q : Fin K, l (ix2 p q) * w (ix2 c q) :=
  (PlainDot.matmul_zero_apply h prec l (transpose ⟨2, ![K, N]⟩ [1, 0] w ht) p c).trans
    (Finset.sum_congr rfl fun q _ => congrArg (l (ix2 p q) * ·) (transpose_ix2_apply w ht q c))

/-- The host's product against a transposed weight matrix, at entry (p, c). -/
theorem dotGeneral_transposed_apply (h : PlainDot.IsPlain d) (prec : Option ContractPrecision) {φ₁ φ₂ : FTy}
    (l : FVec Ideal ⟨2, ![M, K]⟩ φ₁) (w : FVec Ideal ⟨2, ![N, K]⟩ φ₂)
    (ht : (⟨2, ![N, K]⟩ : Shape).Transposes [1, 0] ⟨2, ![K, N]⟩) (p : Fin M) (c : Fin N) :
    Host.dotGeneral d prec l (transpose ⟨2, ![K, N]⟩ [1, 0] w ht) (ix2 p c)
      = ∑ q : Fin K, l (ix2 p q) * w (ix2 c q) :=
  (PlainDot.dotGeneral_apply h prec l (transpose ⟨2, ![K, N]⟩ [1, 0] w ht) p c).trans
    (Finset.sum_congr rfl fun q _ => congrArg (l (ix2 p q) * ·) (transpose_ix2_apply w ht q c))

/-- A bias cast to a row and broadcast down R rows, at entry (p, c): any C. -/
theorem bias_cast_rows {α : Type} {R C : Nat} (v : (⟨1, ![C]⟩ : Shape).Idx → α)
    (hs : (⟨1, ![C]⟩ : Shape).ShapeCasts ⟨2, ![1, C]⟩) (hb : (⟨2, ![1, C]⟩ : Shape).Broadcasts ⟨2, ![R, C]⟩)
    (p : Fin R) (c : Fin C) :
    broadcastTo ⟨2, ![R, C]⟩ (shapeCast ⟨2, ![1, C]⟩ v hs) hb (ix2 p c) = v (ix1 c) :=
  (broadcastTo_1b_ab_apply (shapeCast ⟨2, ![1, C]⟩ v hs) hb p c).trans (shapeCast_a_1a_apply v hs 0 c)

/-- A coordinate below C is what a broadcast reads on an axis of extent C: itself, or 0 when C = 1 (then it IS 0). -/
private theorem coord_or_zero {C : Nat} (c : Fin C) : c.val = if C = 1 then 0 else c.val := by
  split
  · have := c.isLt; omega
  · rfl

/-- A bias broadcast to a row and then down N rows, both by dimension map, at entry (n, c): any C. -/
theorem bias_bcast_rows {α : Type} {R C : Nat} (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![R, C]⟩ ![0, 1]) (n : Fin R) (c : Fin C) :
    broadcastInDim ⟨2, ![R, C]⟩ ![0, 1] h2 (broadcastInDim ⟨2, ![1, C]⟩ ![1] h1 b) (ix2 n c) = b (ix1 c) :=
  (broadcastInDim_apply ![0, 1] h2 _ (ix2 n c) (ix2 (0 : Fin 1) c) (fun a => by
    match a with
    | ⟨0, _⟩ => rfl
    | ⟨1, _⟩ => exact coord_or_zero c)).trans
  (broadcastInDim_apply ![1] h1 b (ix2 (0 : Fin 1) c) (ix1 c) (fun a => by
    match a with
    | ⟨0, _⟩ => exact coord_or_zero c))

end Cert.LayerOps

end
-- ==== Proof.Spec.lean ====
/-
  One graph-convolution layer, entry by entry, on the extended reals.

  For node features `x` (N rows of K numbers), aggregated neighbour features `agg` of the same shape, two weight
  matrices of C rows of K numbers and a bias of C numbers, entry (n, c) of the layer is

      (Σ_q agg[n, q] · W_rel[c, q]  +  Σ_q x[n, q] · W_root[c, q])  +  b[c]

  — both products against the TRANSPOSED weights. The first layer is followed by max(·, 0); the second is not.
  Adding the bias before or after the second product gives the same number: addition of extended reals is
  commutative and associative, with no finiteness needed.
-/
import Idealize.ShloMosaic.Lib.ValueIdx
import Idealize.ShloMosaic.PureOps.Ideal

noncomputable section

open scoped BigOperators

namespace Cert.GConv

open Idealize.ShloMosaic Idealize.ShloMosaic.ValueIdx

variable {N K C : Nat}

/-- Entry (n, c) of a layer before any activation. -/
def affineAt (agg x : (⟨2, ![N, K]⟩ : Shape).Idx → EReal) (wrel wroot : (⟨2, ![C, K]⟩ : Shape).Idx → EReal)
    (b : (⟨1, ![C]⟩ : Shape).Idx → EReal) (n : Fin N) (c : Fin C) : EReal :=
  (∑ q : Fin K, agg (ix2 n q) * wrel (ix2 c q) + ∑ q : Fin K, x (ix2 n q) * wroot (ix2 c q)) + b (ix1 c)

/-- A layer with no activation, as an array. -/
def affine (agg x : (⟨2, ![N, K]⟩ : Shape).Idx → EReal) (wrel wroot : (⟨2, ![C, K]⟩ : Shape).Idx → EReal)
    (b : (⟨1, ![C]⟩ : Shape).Idx → EReal) : (⟨2, ![N, C]⟩ : Shape).Idx → EReal :=
  fun i => affineAt agg x wrel wroot b (i 0) (i 1)

/-- A layer followed by the rectifier max(·, 0), the zero kept as the f32 word it is printed as. -/
def affineRelu (agg x : (⟨2, ![N, K]⟩ : Shape).Idx → EReal) (wrel wroot : (⟨2, ![C, K]⟩ : Shape).Idx → EReal)
    (b : (⟨1, ![C]⟩ : Shape).Idx → EReal) : (⟨2, ![N, C]⟩ : Shape).Idx → EReal :=
  fun i => max (affineAt agg x wrel wroot b (i 0) (i 1)) (Ideal.ofBits .f32 0x00000000#32)

theorem affine_apply (agg x : (⟨2, ![N, K]⟩ : Shape).Idx → EReal) (wrel wroot : (⟨2, ![C, K]⟩ : Shape).Idx → EReal)
    (b : (⟨1, ![C]⟩ : Shape).Idx → EReal) (n : Fin N) (c : Fin C) :
    affine agg x wrel wroot b (ix2 n c) = affineAt agg x wrel wroot b n c := rfl

theorem affineRelu_apply (agg x : (⟨2, ![N, K]⟩ : Shape).Idx → EReal) (wrel wroot : (⟨2, ![C, K]⟩ : Shape).Idx → EReal)
    (b : (⟨1, ![C]⟩ : Shape).Idx → EReal) (n : Fin N) (c : Fin C) :
    affineRelu agg x wrel wroot b (ix2 n c) = max (affineAt agg x wrel wroot b n c) (Ideal.ofBits .f32 0x00000000#32) := rfl

/-- The bias may be added between the two products: (rel + b) + root = (rel + root) + b. -/
theorem bias_between (rel root b : EReal) : (rel + b) + root = (rel + root) + b := add_right_comm rel b root

end Cert.GConv

end
-- ==== Proof.KernelBody.lean ====
/-
  What each call of the kernel computes from its blocks, entry by entry.

  A block of the first call holds 10000 rows. From the aggregated block `a`, the feature block `x` (10000 × 20
  each), the two 16 × 20 weight matrices and the 16 biases, entry (p, c) of what it stores is
      max((Σ_q a[p, q] · W_rel[c, q] + Σ_q x[p, q] · W_root[c, q]) + b[c], 0).
  The second call's block is the same without the rectifier, 16 inputs wide and one output wide. The rounding of
  the products' operands to bf16 is the identity on the extended reals.
-/
import proofs.«115870_j17781164605885_2_alg».proof.Proof.Gen.KernelIdeal.Skeleton
import proofs.«115870_j17781164605885_2_alg».proof.Proof.LibLayerOps
import proofs.«115870_j17781164605885_2_alg».proof.Proof.Spec

noncomputable section

open scoped BigOperators

namespace Cert.KernelIdeal.Body

open Idealize.ShloMosaic Idealize.ShloMosaic.ValueIdx Cert.KernelIdeal Cert.KernelIdeal.Gen Cert.GConv

/-- The first call's product is a plain rows-by-columns product. -/
theorem plain0 : PlainDot.IsPlain dot_S10000x20_S20x16_S10000x16_1_0_0_1_n_n := ⟨rfl, rfl, rfl, rfl, rfl, rfl⟩

/-- So is the second call's. -/
theorem plain1 : PlainDot.IsPlain dot_S10000x16_S16x1_S10000x1_1_0_0_1_n_n := ⟨rfl, rfl, rfl, rfl, rfl, rfl⟩

/-- Entry (p, c) of the first call's stored block. -/
theorem pay0_apply (a x : Vec Ideal S10000x20 .f32) (wrel wroot : Vec Ideal S16x20 .f32) (b : Vec Ideal S16 .f32)
    (p : Fin 10000) (c : Fin 16) :
    k0_pay1 a x wrel wroot b (ix2 p c) = max (affineAt a x wrel wroot b p c) (Ideal.ofBits .f32 0x00000000#32) := by
  unfold k0_pay1
  simp only [maximumf_apply, addf_apply, broadcast_apply]
  rw [LayerOps.matmul_transposed_apply plain0, LayerOps.matmul_transposed_apply plain0, LayerOps.bias_cast_rows,
    shapeCast_self]
  rfl

/-- Entry (p, c) of the second call's stored block (c is the one column). -/
theorem pay1_apply (a x : Vec Ideal S10000x16 .f32) (wrel wroot : Vec Ideal S1x16 .f32) (b : Vec Ideal S1 .f32)
    (p : Fin 10000) (c : Fin 1) :
    k1_pay1 a x wrel wroot b (ix2 p c) = affineAt a x wrel wroot b p c := by
  unfold k1_pay1
  simp only [addf_apply]
  rw [LayerOps.matmul_transposed_apply plain1, LayerOps.matmul_transposed_apply plain1, LayerOps.bias_cast_rows,
    shapeCast_self, shapeCast_self]
  rfl

end Cert.KernelIdeal.Body

end
-- ==== Proof.KernelLayer1.lean ====
/-
  The first call's output array after all ten grid points.

  Grid point t stages rows 10000·t … 10000·t + 9999 of the aggregated features and of the node features, the
  whole of each weight matrix and of the bias, and writes back the same rows of the output. So the block point t
  writes back is block t of ONE array — the rectified layer of the arrays as the call finds them — and the ten
  blocks tile the output: it ends holding that array.
-/
import proofs.«115870_j17781164605885_2_alg».proof.Proof.Gen.KernelIdeal.Frame
import proofs.«115870_j17781164605885_2_alg».proof.Proof.KernelBody

set_option maxRecDepth 16384

noncomputable section

namespace Cert.KernelIdeal.Layer1

open Idealize.ShloMosaic Idealize.ShloMosaic.TcCoe Idealize.ShloMosaic.ValueIdx
open Idealize.SL.Sem
open Idealize.ShloMosaic.Pipeline (Dat)
open Cert.KernelIdeal Cert.KernelIdeal.Gen Cert.GConv

variable (V : (c : Dev nD) → (b : Ref sig .tc) → Buf (Elt Ideal) ((c : Thread nD τ).loc b))

theorem off2 : (![0, 0] : Fin 2 → Nat) = fun _ => 0 := funext fun a => by fin_cases a <;> rfl
theorem off1 : (![0] : Fin 1 → Nat) = fun _ => 0 := funext fun a => by fin_cases a; rfl

/-- The grid has ten points. -/
theorem point_lt (t : Fin cfg0.N) : t.val < 10 := by
  have h : t.val < grid0.N := t.isLt
  rw [N_0] at h
  exact h

/-- Row p of point t's blocks is row 10000·t + p of the arrays. -/
def row (t : Fin cfg0.N) (p : Fin 10000) : Fin 100000 :=
  ⟨t.val * 10000 + p.val, by have := point_lt t; have := p.isLt; omega⟩

/-- The printed index maps over the grid: the three row-blocked windows sit at block row t, column block 0; the
    weights and the bias are always block 0. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The aggregated block at point t, entry (p, q). -/
theorem read_agg (c : Dev nD) (t : Fin cfg0.N) (p : Fin 10000) (q : Fin 20) :
    iblk0 V c 0 t (ix2 p q) = V c main_v13 (ix2 (row t p) q) := by
  show V c main_v13 (((cfg0.win 0).blk t).view.emb (ix2 p q)) = V c main_v13 (ix2 (row t p) q)
  obtain ⟨e0, e1, -⟩ := index_facts t
  refine congrArg (V c main_v13) (funext fun a => Fin.ext ?_)
  match a with
  | ⟨0, _⟩ => show win0_0.index t (0 : Fin 2) * 10000 + 1 * p.val = t.val * 10000 + p.val; rw [e0]; omega
  | ⟨1, _⟩ => show win0_0.index t (1 : Fin 2) * 20 + 1 * q.val = q.val; rw [e1]; omega

/-- The feature block at point t, entry (p, q). -/
theorem read_x (c : Dev nD) (t : Fin cfg0.N) (p : Fin 10000) (q : Fin 20) :
    iblk0 V c 1 t (ix2 p q) = V c main_arg0 (ix2 (row t p) q) := by
  show V c main_arg0 (((cfg0.win 1).blk t).view.emb (ix2 p q)) = V c main_arg0 (ix2 (row t p) q)
  obtain ⟨-, -, e0, e1, -⟩ := index_facts t
  refine congrArg (V c main_arg0) (funext fun a => Fin.ext ?_)
  match a with
  | ⟨0, _⟩ => show win0_1.index t (0 : Fin 2) * 10000 + 1 * p.val = t.val * 10000 + p.val; rw [e0]; omega
  | ⟨1, _⟩ => show win0_1.index t (1 : Fin 2) * 20 + 1 * q.val = q.val; rw [e1]; omega

/-- The neighbour weights' block is the whole matrix. -/
theorem read_wrel (c : Dev nD) (t : Fin cfg0.N) : iblk0 V c 2 t = V c main_arg2 := by
  funext y
  show V c main_arg2 (((cfg0.win 2).blk t).view.emb y) = V c main_arg2 y
  obtain ⟨-, -, -, -, e0, e1, -⟩ := index_facts t
  refine congrArg (V c main_arg2) (funext fun a => Fin.ext ?_)
  match a with
  | ⟨0, _⟩ => show win0_2.index t (0 : Fin 2) * 16 + 1 * (y 0).val = (y 0).val; rw [e0]; omega
  | ⟨1, _⟩ => show win0_2.index t (1 : Fin 2) * 20 + 1 * (y 1).val = (y 1).val; rw [e1]; omega

/-- The bias's block is the whole vector. -/
theorem read_bias (c : Dev nD) (t : Fin cfg0.N) : iblk0 V c 3 t = V c main_arg3 := by
  funext y
  show V c main_arg3 (((cfg0.win 3).blk t).view.emb y) = V c main_arg3 y
  obtain ⟨-, -, -, -, -, -, e0, -⟩ := index_facts t
  refine congrArg (V c main_arg3) (funext fun a => Fin.ext ?_)
  match a with
  | ⟨0, _⟩ => show win0_3.index t (0 : Fin 1) * 16 + 1 * (y 0).val = (y 0).val; rw [e0]; omega

/-- The self weights' block is the whole matrix. -/
theorem read_wroot (c : Dev nD) (t : Fin cfg0.N) : iblk0 V c 4 t = V c main_arg4 := by
  funext y
  show V c main_arg4 (((cfg0.win 4).blk t).view.emb y) = V c main_arg4 y
  obtain ⟨-, -, -, -, -, -, -, e0, e1, -⟩ := index_facts t
  refine congrArg (V c main_arg4) (funext fun a => Fin.ext ?_)
  match a with
  | ⟨0, _⟩ => show win0_4.index t (0 : Fin 2) * 16 + 1 * (y 0).val = (y 0).val; rw [e0]; omega
  | ⟨1, _⟩ => show win0_4.index t (1 : Fin 2) * 20 + 1 * (y 1).val = (y 1).val; rw [e1]; omega

/-- Entry (p, q) of the output's block at point t sits at row 10000·t + p, column q of the output. -/
theorem out_emb (t : Fin cfg0.N) (p : Fin 10000) (q : Fin 16) :
    ((cfg0.win 5).blk t).view.emb (ix2 p q) = ix2 (row t p) q := by
  obtain ⟨-, -, -, -, -, -, -, -, -, e0, e1⟩ := index_facts t
  funext a
  refine Fin.ext ?_
  match a with
  | ⟨0, _⟩ => show win0_5.index t (0 : Fin 2) * 10000 + 1 * p.val = t.val * 10000 + p.val; rw [e0]; omega
  | ⟨1, _⟩ => show win0_5.index t (1 : Fin 2) * 16 + 1 * q.val = q.val; rw [e1]; omega

/-- WHAT POINT t WRITES BACK is block t of the rectified layer of the arrays as the call finds them. -/
theorem flushed_eq (c : Dev nD) (t : Fin cfg0.N) :
    (dat0 V c).flushed 5 t = ((cfg0.win 5).blk t).view.read (Elt Ideal)
      (affineRelu (V c main_v13) (V c main_arg0) (V c main_arg2) (V c main_arg4) (V c main_arg3)) := by
  show (cfg0.win 5).cut (grid0.coords t) ((dat0 V c).after 5 t) = _
  rw [after0_5]
  unfold out0_5
  rw [View.canon_unit_zero off2]
  simp only [View.ld_unit_zero (S := S10000x20) off2, View.ld_unit_zero (S := S16x20) off2, View.ld_unit_zero (S := S16) off1]
  rw [read_wrel V c t, read_bias V c t, read_wroot V c t]
  funext j
  obtain ⟨p, q, rfl⟩ : ∃ (p : Fin 10000) (q : Fin 16), j = ix2 p q := ⟨j 0, j 1, eq_ix2 j⟩
  show k0_pay1 (iblk0 V c 0 t) (iblk0 V c 1 t) (V c main_arg2) (V c main_arg4) (V c main_arg3) (ix2 p q)
    = affineRelu (V c main_v13) (V c main_arg0) (V c main_arg2) (V c main_arg4) (V c main_arg3)
        (((cfg0.win 5).blk t).view.emb (ix2 p q))
  refine (Body.pay0_apply (iblk0 V c 0 t) (iblk0 V c 1 t) (V c main_arg2) (V c main_arg4) (V c main_arg3) p q).trans ?_
  rw [out_emb t p q, affineRelu_apply]
  unfold affineAt
  simp only [read_agg V c t, read_x V c t]

/-- An index of the output is in point t's block iff each coordinate is in the block's range on its axis. -/
theorem mem_blk (t : Fin cfg0.N) (i : S100000x16.Idx) :
    i ∈ ((cfg0.win 5).blk t).view.set ↔ ∀ a : Fin 2, win0_5.index t a * S10000x16.size a ≤ (i a).val ∧ (i a).val < win0_5.index t a * S10000x16.size a + S10000x16.size a := by
  show i ∈ ((View.whole main_v14).slice (win0_5.rect t)).set ↔ _
  rw [View.set_slice_whole, Rect.mem_set_unit]
  exact Iff.rfl

/-- The ten blocks tile the output: row r is in point r / 10000's block. -/
theorem cover (i : S100000x16.Idx) :
    ∃ t : Fin cfg0.N, (cfg0.win 5).flush t = true ∧ i ∈ ((cfg0.win 5).blk t).view.set := by
  have hi0 : (i 0).val < 100000 := (i 0).isLt
  have hi1 : (i 1).val < 16 := (i 1).isLt
  obtain ⟨t, ht⟩ : ∃ t : Fin cfg0.N, t.val = (i 0).val / 10000 :=
    ⟨⟨(i 0).val / 10000, by show _ < grid0.N; rw [N_0]; omega⟩, rfl⟩
  obtain ⟨-, -, -, -, -, -, -, -, -, e0, e1⟩ := index_facts t
  refine ⟨t, flush0_5 t, ?_⟩
  rw [mem_blk]
  intro a
  match a with
  | ⟨0, _⟩ => show win0_5.index t (0 : Fin 2) * 10000 ≤ (i 0).val ∧ (i 0).val < win0_5.index t (0 : Fin 2) * 10000 + 10000; rw [e0, ht]; omega
  | ⟨1, _⟩ => show win0_5.index t (1 : Fin 2) * 16 ≤ (i 1).val ∧ (i 1).val < win0_5.index t (1 : Fin 2) * 16 + 16; rw [e1]; omega

/-- THE OUTPUT ARRAY after the call: the rectified layer of the arrays as the call finds them. -/
theorem final (c : Dev nD) :
    (dat0 V c).arrAt 5 cfg0.N
      = affineRelu (V c main_v13) (V c main_arg0) (V c main_arg2) (V c main_arg4) (V c main_arg3) :=
  (dat0 V c).arrAt_eq_of_cover 5 _ (fun t _ => flushed_eq V c t) cover

end Cert.KernelIdeal.Layer1

end
-- ==== Proof.KernelLayer2.lean ====
/-
  The second call's output array after all ten grid points.

  Grid point t stages rows 10000·t … 10000·t + 9999 of the aggregated hidden features and of the hidden features
  themselves (16 wide), the whole of each 1 × 16 weight row and of the one bias, and writes back the same rows of
  the one-column output. The block point t writes back is block t of the layer of the arrays as the call finds
  them, and the ten blocks tile the output.
-/
import proofs.«115870_j17781164605885_2_alg».proof.Proof.Gen.KernelIdeal.Frame
import proofs.«115870_j17781164605885_2_alg».proof.Proof.KernelBody

set_option maxRecDepth 16384

noncomputable section

namespace Cert.KernelIdeal.Layer2

open Idealize.ShloMosaic Idealize.ShloMosaic.TcCoe Idealize.ShloMosaic.ValueIdx
open Idealize.SL.Sem
open Idealize.ShloMosaic.Pipeline (Dat)
open Cert.KernelIdeal Cert.KernelIdeal.Gen Cert.GConv

variable (V : (c : Dev nD) → (b : Ref sig .tc) → Buf (Elt Ideal) ((c : Thread nD τ).loc b))

theorem off2 : (![0, 0] : Fin 2 → Nat) = fun _ => 0 := funext fun a => by fin_cases a <;> rfl
theorem off1 : (![0] : Fin 1 → Nat) = fun _ => 0 := funext fun a => by fin_cases a; rfl

/-- The grid has ten points. -/
theorem point_lt (t : Fin cfg1.N) : t.val < 10 := by
  have h : t.val < grid1.N := t.isLt
  rw [N_1] at h
  exact h

/-- Row p of point t's blocks is row 10000·t + p of the arrays. -/
def row (t : Fin cfg1.N) (p : Fin 10000) : Fin 100000 :=
  ⟨t.val * 10000 + p.val, by have := point_lt t; have := p.isLt; omega⟩

/-- The printed index maps over the grid: the three row-blocked windows sit at block row t, column block 0; the
    weights and the bias are always block 0. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The aggregated block at point t, entry (p, q). -/
theorem read_agg (c : Dev nD) (t : Fin cfg1.N) (p : Fin 10000) (q : Fin 16) :
    iblk1 V c 0 t (ix2 p q) = V c main_v24 (ix2 (row t p) q) := by
  show V c main_v24 (((cfg1.win 0).blk t).view.emb (ix2 p q)) = V c main_v24 (ix2 (row t p) q)
  obtain ⟨e0, e1, -⟩ := index_facts t
  refine congrArg (V c main_v24) (funext fun a => Fin.ext ?_)
  match a with
  | ⟨0, _⟩ => show win1_0.index t (0 : Fin 2) * 10000 + 1 * p.val = t.val * 10000 + p.val; rw [e0]; omega
  | ⟨1, _⟩ => show win1_0.index t (1 : Fin 2) * 16 + 1 * q.val = q.val; rw [e1]; omega

/-- The hidden-feature block at point t, entry (p, q). -/
theorem read_h (c : Dev nD) (t : Fin cfg1.N) (p : Fin 10000) (q : Fin 16) :
    iblk1 V c 1 t (ix2 p q) = V c main_v14 (ix2 (row t p) q) := by
  show V c main_v14 (((cfg1.win 1).blk t).view.emb (ix2 p q)) = V c main_v14 (ix2 (row t p) q)
  obtain ⟨-, -, e0, e1, -⟩ := index_facts t
  refine congrArg (V c main_v14) (funext fun a => Fin.ext ?_)
  match a with
  | ⟨0, _⟩ => show win1_1.index t (0 : Fin 2) * 10000 + 1 * p.val = t.val * 10000 + p.val; rw [e0]; omega
  | ⟨1, _⟩ => show win1_1.index t (1 : Fin 2) * 16 + 1 * q.val = q.val; rw [e1]; omega

/-- The neighbour weights' block is the whole row. -/
theorem read_wrel (c : Dev nD) (t : Fin cfg1.N) : iblk1 V c 2 t = V c main_arg5 := by
  funext y
  show V c main_arg5 (((cfg1.win 2).blk t).view.emb y) = V c main_arg5 y
  obtain ⟨-, -, -, -, e0, e1, -⟩ := index_facts t
  refine congrArg (V c main_arg5) (funext fun a => Fin.ext ?_)
  match a with
  | ⟨0, _⟩ => show win1_2.index t (0 : Fin 2) * 1 + 1 * (y 0).val = (y 0).val; rw [e0]; omega
  | ⟨1, _⟩ => show win1_2.index t (1 : Fin 2) * 16 + 1 * (y 1).val = (y 1).val; rw [e1]; omega

/-- The bias's block is the whole one-entry vector. -/
theorem read_bias (c : Dev nD) (t : Fin cfg1.N) : iblk1 V c 3 t = V c main_arg6 := by
  funext y
  show V c main_arg6 (((cfg1.win 3).blk t).view.emb y) = V c main_arg6 y
  obtain ⟨-, -, -, -, -, -, e0, -⟩ := index_facts t
  refine congrArg (V c main_arg6) (funext fun a => Fin.ext ?_)
  match a with
  | ⟨0, _⟩ => show win1_3.index t (0 : Fin 1) * 1 + 1 * (y 0).val = (y 0).val; rw [e0]; omega

/-- The self weights' block is the whole row. -/
theorem read_wroot (c : Dev nD) (t : Fin cfg1.N) : iblk1 V c 4 t = V c main_arg7 := by
  funext y
  show V c main_arg7 (((cfg1.win 4).blk t).view.emb y) = V c main_arg7 y
  obtain ⟨-, -, -, -, -, -, -, e0, e1, -⟩ := index_facts t
  refine congrArg (V c main_arg7) (funext fun a => Fin.ext ?_)
  match a with
  | ⟨0, _⟩ => show win1_4.index t (0 : Fin 2) * 1 + 1 * (y 0).val = (y 0).val; rw [e0]; omega
  | ⟨1, _⟩ => show win1_4.index t (1 : Fin 2) * 16 + 1 * (y 1).val = (y 1).val; rw [e1]; omega

/-- Entry (p, q) of the output's block at point t sits at row 10000·t + p, column q of the output. -/
theorem out_emb (t : Fin cfg1.N) (p : Fin 10000) (q : Fin 1) :
    ((cfg1.win 5).blk t).view.emb (ix2 p q) = ix2 (row t p) q := by
  obtain ⟨-, -, -, -, -, -, -, -, -, e0, e1⟩ := index_facts t
  funext a
  refine Fin.ext ?_
  match a with
  | ⟨0, _⟩ => show win1_5.index t (0 : Fin 2) * 10000 + 1 * p.val = t.val * 10000 + p.val; rw [e0]; omega
  | ⟨1, _⟩ => show win1_5.index t (1 : Fin 2) * 1 + 1 * q.val = q.val; rw [e1]; omega

/-- WHAT POINT t WRITES BACK is block t of the layer of the arrays as the call finds them. -/
theorem flushed_eq (c : Dev nD) (t : Fin cfg1.N) :
    (dat1 V c).flushed 5 t = ((cfg1.win 5).blk t).view.read (Elt Ideal)
      (affine (V c main_v24) (V c main_v14) (V c main_arg5) (V c main_arg7) (V c main_arg6)) := by
  show (cfg1.win 5).cut (grid1.coords t) ((dat1 V c).after 5 t) = _
  rw [after1_5]
  unfold out1_5
  rw [View.canon_unit_zero off2]
  simp only [View.ld_unit_zero (S := S10000x16) off2, View.ld_unit_zero (S := S1x16) off2, View.ld_unit_zero (S := S1) off1]
  rw [read_wrel V c t, read_bias V c t, read_wroot V c t]
  funext j
  obtain ⟨p, q, rfl⟩ : ∃ (p : Fin 10000) (q : Fin 1), j = ix2 p q := ⟨j 0, j 1, eq_ix2 j⟩
  show k1_pay1 (iblk1 V c 0 t) (iblk1 V c 1 t) (V c main_arg5) (V c main_arg7) (V c main_arg6) (ix2 p q)
    = affine (V c main_v24) (V c main_v14) (V c main_arg5) (V c main_arg7) (V c main_arg6)
        (((cfg1.win 5).blk t).view.emb (ix2 p q))
  refine (Body.pay1_apply (iblk1 V c 0 t) (iblk1 V c 1 t) (V c main_arg5) (V c main_arg7) (V c main_arg6) p q).trans ?_
  rw [out_emb t p q, affine_apply]
  unfold affineAt
  simp only [read_agg V c t, read_h V c t]

/-- An index of the output is in point t's block iff each coordinate is in the block's range on its axis. -/
theorem mem_blk (t : Fin cfg1.N) (i : S100000x1.Idx) :
    i ∈ ((cfg1.win 5).blk t).view.set ↔ ∀ a : Fin 2, win1_5.index t a * S10000x1.size a ≤ (i a).val ∧ (i a).val < win1_5.index t a * S10000x1.size a + S10000x1.size a := by
  show i ∈ ((View.whole main_v25).slice (win1_5.rect t)).set ↔ _
  rw [View.set_slice_whole, Rect.mem_set_unit]
  exact Iff.rfl

/-- The ten blocks tile the output: row r is in point r / 10000's block. -/
theorem cover (i : S100000x1.Idx) :
    ∃ t : Fin cfg1.N, (cfg1.win 5).flush t = true ∧ i ∈ ((cfg1.win 5).blk t).view.set := by
  have hi0 : (i 0).val < 100000 := (i 0).isLt
  have hi1 : (i 1).val < 1 := (i 1).isLt
  obtain ⟨t, ht⟩ : ∃ t : Fin cfg1.N, t.val = (i 0).val / 10000 :=
    ⟨⟨(i 0).val / 10000, by show _ < grid1.N; rw [N_1]; omega⟩, rfl⟩
  obtain ⟨-, -, -, -, -, -, -, -, -, e0, e1⟩ := index_facts t
  refine ⟨t, flush1_5 t, ?_⟩
  rw [mem_blk]
  intro a
  match a with
  | ⟨0, _⟩ => show win1_5.index t (0 : Fin 2) * 10000 ≤ (i 0).val ∧ (i 0).val < win1_5.index t (0 : Fin 2) * 10000 + 10000; rw [e0, ht]; omega
  | ⟨1, _⟩ => show win1_5.index t (1 : Fin 2) * 1 ≤ (i 1).val ∧ (i 1).val < win1_5.index t (1 : Fin 2) * 1 + 1; rw [e1]; omega

/-- THE OUTPUT ARRAY after the call: the layer of the arrays as the call finds them. -/
theorem final (c : Dev nD) :
    (dat1 V c).arrAt 5 cfg1.N
      = affine (V c main_v24) (V c main_v14) (V c main_arg5) (V c main_arg7) (V c main_arg6) :=
  (dat1 V c).arrAt_eq_of_cover 5 _ (fun t _ => flushed_eq V c t) cover

end Cert.KernelIdeal.Layer2

end
-- ==== Proof.Aggregate.lean ====
/-
  The neighbour aggregation both programs compute on the host, as named functions.

  The edge list is a 2 × E integer array: row 0 holds each edge's source node, row 1 its destination node.
  A source below zero is wrapped once by the number of nodes (numpy's negative indexing); each edge gathers its
  source node's feature row, and the gathered rows are summed into the destination node's row of an array that
  starts at zero. Nothing here opens the gather or the scatter: both programs apply these same operations, so the
  aggregation is carried as one function of the features and the two index vectors.
-/
import proofs.«115870_j17781164605885_2_alg».proof.KernelIdeal
import Idealize.ShloMosaic.PureOps.Ideal

noncomputable section

namespace Cert.GConv

open Idealize.ShloMosaic Cert.KernelIdeal Cert.KernelIdeal.Facts₀

variable [Cert.KernelIdeal.Facts]

/-- The edges' source nodes: row 0 of the edge list as a vector. -/
def srcOf (ei : (⟨S2x3200000, .i32⟩ : BufTy).Contents (Elt Ideal)) : (⟨S3200000, .i32⟩ : BufTy).Contents (Elt Ideal) :=
  shapeCast _ (extractStridedSlice S1x3200000 ![0, 0] ei slices_S2x3200000_S1x3200000_0_0) shapeCasts_S1x3200000_S3200000

/-- The edges' destination nodes: row 1 of the edge list as a vector. -/
def dstOf (ei : (⟨S2x3200000, .i32⟩ : BufTy).Contents (Elt Ideal)) : (⟨S3200000, .i32⟩ : BufTy).Contents (Elt Ideal) :=
  shapeCast _ (extractStridedSlice S1x3200000 ![1, 0] ei slices_S2x3200000_S1x3200000_1_0) shapeCasts_S1x3200000_S3200000

/-- The gather's start indices: a negative source wrapped by the number of nodes, laid out as a column. -/
def wrapped (s : (⟨S3200000, .i32⟩ : BufTy).Contents (Elt Ideal)) : (⟨S3200000x1, .i32⟩ : BufTy).Contents (Elt Ideal) :=
  broadcastInDim S3200000x1 ![0] bcast_S3200000_S3200000x1_0
    (select (cmpi .slt s (broadcastInDim S3200000 ![] bcast_S_S3200000 (constantI S_ 32 0#32)))
      (addi s (broadcastInDim S3200000 ![] bcast_S_S3200000 (constantI S_ 32 100000#32))) s)

/-- Aggregation of 20-wide rows: gather at the sources, sum into the destinations from zero. -/
def agg20 (x : (⟨S100000x20, .f32⟩ : BufTy).Contents (Elt Ideal)) (s d : (⟨S3200000, .i32⟩ : BufTy).Contents (Elt Ideal)) :
    (⟨S100000x20, .f32⟩ : BufTy).Contents (Elt Ideal) :=
  Host.scatterAdd scatter_S100000x20_S3200000x1_S3200000x20_1_0_0_1
    (broadcastInDim S100000x20 ![] bcast_S_S100000x20 (constant (F := Ideal) S_ .f32 0x00000000#32))
    (broadcastInDim S3200000x1 ![0] bcast_S3200000_S3200000x1_0 d)
    (Host.gather gather_S100000x20_S3200000x1_S3200000x20_1_0_n_n_0_1_120 x (wrapped s))

/-- Aggregation of 16-wide rows. -/
def agg16 (h : (⟨S100000x16, .f32⟩ : BufTy).Contents (Elt Ideal)) (s d : (⟨S3200000, .i32⟩ : BufTy).Contents (Elt Ideal)) :
    (⟨S100000x16, .f32⟩ : BufTy).Contents (Elt Ideal) :=
  Host.scatterAdd scatter_S100000x16_S3200000x1_S3200000x16_1_0_0_1
    (broadcastInDim S100000x16 ![] bcast_S_S100000x16 (constant (F := Ideal) S_ .f32 0x00000000#32))
    (broadcastInDim S3200000x1 ![0] bcast_S3200000_S3200000x1_0 d)
    (Host.gather gather_S100000x16_S3200000x1_S3200000x16_1_0_n_n_0_1_116 h (wrapped s))

end Cert.GConv

end
-- ==== Proof.Network.lean ====
/-
  The two-layer network as one function of the argument arrays.

  With `src`, `dst` the two rows of the edge list:
      h   = max(layer(aggregate(x, src, dst), x; W_rel1, W_root1, b_rel1), 0)        (100000 × 16)
      out =     layer(aggregate(h, src, dst), h; W_rel2, W_root2, b_rel2)            (100000 × 1)
  where `layer` is the entry-by-entry affine map of the layer specification and `aggregate` the host's
  gather-then-scatter-add, carried unopened.
-/
import proofs.«115870_j17781164605885_2_alg».proof.Proof.Spec
import proofs.«115870_j17781164605885_2_alg».proof.Proof.Aggregate

noncomputable section

namespace Cert.GConv

open Idealize.ShloMosaic Cert.KernelIdeal

variable [Cert.KernelIdeal.Facts]

/-- The hidden features after the first layer and its rectifier. -/
def hidden (x : (⟨S100000x20, .f32⟩ : BufTy).Contents (Elt Ideal)) (ei : (⟨S2x3200000, .i32⟩ : BufTy).Contents (Elt Ideal))
    (wrel1 : (⟨S16x20, .f32⟩ : BufTy).Contents (Elt Ideal)) (b1 : (⟨S16, .f32⟩ : BufTy).Contents (Elt Ideal))
    (wroot1 : (⟨S16x20, .f32⟩ : BufTy).Contents (Elt Ideal)) : (⟨S100000x16, .f32⟩ : BufTy).Contents (Elt Ideal) :=
  affineRelu (agg20 x (srcOf ei) (dstOf ei)) x wrel1 wroot1 b1

/-- The network's result. -/
def output (x : (⟨S100000x20, .f32⟩ : BufTy).Contents (Elt Ideal)) (ei : (⟨S2x3200000, .i32⟩ : BufTy).Contents (Elt Ideal))
    (wrel1 : (⟨S16x20, .f32⟩ : BufTy).Contents (Elt Ideal)) (b1 : (⟨S16, .f32⟩ : BufTy).Contents (Elt Ideal))
    (wroot1 : (⟨S16x20, .f32⟩ : BufTy).Contents (Elt Ideal))
    (wrel2 : (⟨S1x16, .f32⟩ : BufTy).Contents (Elt Ideal)) (b2 : (⟨S1, .f32⟩ : BufTy).Contents (Elt Ideal))
    (wroot2 : (⟨S1x16, .f32⟩ : BufTy).Contents (Elt Ideal)) : (⟨S100000x1, .f32⟩ : BufTy).Contents (Elt Ideal) :=
  affine (agg16 (hidden x ei wrel1 b1 wroot1) (srcOf ei) (dstOf ei)) (hidden x ei wrel1 b1 wroot1) wrel2 wroot2 b2

end Cert.GConv

end
-- ==== Proof.KernelValue.lean ====
/-
  The idealized kernel's result array is the network function of its arguments.

  Walking the program's four segments from the launch memory: the first stretch of host operations leaves the
  aggregated node features; the first call turns them, the node features, the first layer's weights and bias
  into the rectified layer — the hidden features; the second stretch aggregates the hidden features over the
  same edges; the second call turns that, the hidden features and the second layer's weights and bias into the
  result. No segment writes an argument, so each is read back at its launch contents.
-/
import proofs.«115870_j17781164605885_2_alg».proof.Proof.Gen.KernelIdeal.Frame
import proofs.«115870_j17781164605885_2_alg».proof.Proof.KernelLayer1
import proofs.«115870_j17781164605885_2_alg».proof.Proof.KernelLayer2
import proofs.«115870_j17781164605885_2_alg».proof.Proof.Network
import Idealize.ShloMosaic.Lib.StableHlo.Run

set_option maxRecDepth 16384

noncomputable section

namespace Cert.KernelIdeal.Whole

open Idealize.ShloMosaic Idealize.ShloMosaic.TcCoe Idealize.ShloMosaic.StableHlo
open Idealize.SL.Sem
open Idealize.ShloMosaic.Pipeline (Dat)
open Cert.KernelIdeal Cert.KernelIdeal.Gen Cert.GConv

variable (m : (ℓ : Loc nD τ sig) → Buf (Elt Ideal) ℓ) (ρ : Dev nD → PrngReg)

/-! ## What the first call finds -/

/-- The first stretch leaves the aggregation of the node features over the edges. -/
theorem entry1_agg (c : Dev nD) :
    V1 m ρ c main_v13 = agg20 (m ((c : Thread nD τ).loc main_arg0)) (srcOf (m ((c : Thread nD τ).loc main_arg1)))
      (dstOf (m ((c : Thread nD τ).loc main_arg1))) := by
  show StableHlo.after hostOps0 (W0 m ρ c) (Proc.devRef .tc main_v13) = _
  dsimp only [hostOps0]
  after_results
  rfl

theorem entry1_x (c : Dev nD) : V1 m ρ c main_arg0 = m ((c : Thread nD τ).loc main_arg0) := by
  show StableHlo.after hostOps0 (W0 m ρ c) (Proc.devRef .tc main_arg0) = _
  dsimp only [hostOps0]
  after_results

theorem entry1_wrel (c : Dev nD) : V1 m ρ c main_arg2 = m ((c : Thread nD τ).loc main_arg2) := by
  show StableHlo.after hostOps0 (W0 m ρ c) (Proc.devRef .tc main_arg2) = _
  dsimp only [hostOps0]
  after_results

theorem entry1_bias (c : Dev nD) : V1 m ρ c main_arg3 = m ((c : Thread nD τ).loc main_arg3) := by
  show StableHlo.after hostOps0 (W0 m ρ c) (Proc.devRef .tc main_arg3) = _
  dsimp only [hostOps0]
  after_results

theorem entry1_wroot (c : Dev nD) : V1 m ρ c main_arg4 = m ((c : Thread nD τ).loc main_arg4) := by
  show StableHlo.after hostOps0 (W0 m ρ c) (Proc.devRef .tc main_arg4) = _
  dsimp only [hostOps0]
  after_results

/-- The first call leaves the hidden features. -/
theorem first_out (c : Dev nD) :
    (dat0 (V1 m ρ) c).arrAt 5 cfg0.N
      = hidden (m ((c : Thread nD τ).loc main_arg0)) (m ((c : Thread nD τ).loc main_arg1))
          (m ((c : Thread nD τ).loc main_arg2)) (m ((c : Thread nD τ).loc main_arg3))
          (m ((c : Thread nD τ).loc main_arg4)) := by
  rw [Layer1.final (V1 m ρ) c, entry1_agg, entry1_x, entry1_wrel, entry1_bias, entry1_wroot]
  rfl

/-! ## What the second call finds -/

/-- After the first call its output buffer holds the hidden features. -/
theorem mid_h (c : Dev nD) :
    W2 m ρ c (Proc.devRef .tc main_v14)
      = hidden (m ((c : Thread nD τ).loc main_arg0)) (m ((c : Thread nD τ).loc main_arg1))
          (m ((c : Thread nD τ).loc main_arg2)) (m ((c : Thread nD τ).loc main_arg3))
          (m ((c : Thread nD τ).loc main_arg4)) :=
  (W2_arr m ρ c 5).trans (first_out m ρ c)

/-- The edges' sources, computed before the first call, are untouched by it. -/
theorem mid_src (c : Dev nD) : W2 m ρ c (Proc.devRef .tc main_v1) = srcOf (m ((c : Thread nD τ).loc main_arg1)) :=
  (W2_of_ne m ρ c main_v1 (by decide)).trans (by
    show StableHlo.after hostOps0 (W0 m ρ c) (Proc.devRef .tc main_v1) = _
    dsimp only [hostOps0]
    after_results
    rfl)

/-- So are the edges' destinations. -/
theorem mid_dst (c : Dev nD) : W2 m ρ c (Proc.devRef .tc main_v3) = dstOf (m ((c : Thread nD τ).loc main_arg1)) :=
  (W2_of_ne m ρ c main_v3 (by decide)).trans (by
    show StableHlo.after hostOps0 (W0 m ρ c) (Proc.devRef .tc main_v3) = _
    dsimp only [hostOps0]
    after_results
    rfl)

/-- The second stretch leaves the aggregation of the hidden features over the same edges. -/
theorem entry2_agg (c : Dev nD) :
    V3 m ρ c main_v24
      = agg16 (hidden (m ((c : Thread nD τ).loc main_arg0)) (m ((c : Thread nD τ).loc main_arg1))
          (m ((c : Thread nD τ).loc main_arg2)) (m ((c : Thread nD τ).loc main_arg3))
          (m ((c : Thread nD τ).loc main_arg4)))
        (srcOf (m ((c : Thread nD τ).loc main_arg1))) (dstOf (m ((c : Thread nD τ).loc main_arg1))) := by
  show StableHlo.after hostOps1 (W2 m ρ c) (Proc.devRef .tc main_v24) = _
  dsimp only [hostOps1]
  after_results
  rw [mid_h, mid_src, mid_dst]
  rfl

/-- The second stretch does not write the hidden features. -/
theorem entry2_h (c : Dev nD) :
    V3 m ρ c main_v14
      = hidden (m ((c : Thread nD τ).loc main_arg0)) (m ((c : Thread nD τ).loc main_arg1))
          (m ((c : Thread nD τ).loc main_arg2)) (m ((c : Thread nD τ).loc main_arg3))
          (m ((c : Thread nD τ).loc main_arg4)) := by
  show StableHlo.after hostOps1 (W2 m ρ c) (Proc.devRef .tc main_v14) = _
  dsimp only [hostOps1]
  after_results
  exact mid_h m ρ c

/-- The second layer's weights and bias are as launched: the second call only reads them, and its exit contents
    at an argument are the launch contents. -/
theorem entry2_wrel (c : Dev nD) : V3 m ρ c main_arg5 = m ((c : Thread nD τ).loc main_arg5) :=
  ((W4_arr m ρ c 2).trans (((dat1 (V3 m ρ) c).arrAt_in 2 rfl _).trans (A_eq1 (V3 m ρ) c 2))).symm.trans (W4_main_arg5 m ρ c)

theorem entry2_bias (c : Dev nD) : V3 m ρ c main_arg6 = m ((c : Thread nD τ).loc main_arg6) :=
  ((W4_arr m ρ c 3).trans (((dat1 (V3 m ρ) c).arrAt_in 3 rfl _).trans (A_eq1 (V3 m ρ) c 3))).symm.trans (W4_main_arg6 m ρ c)

theorem entry2_wroot (c : Dev nD) : V3 m ρ c main_arg7 = m ((c : Thread nD τ).loc main_arg7) :=
  ((W4_arr m ρ c 4).trans (((dat1 (V3 m ρ) c).arrAt_in 4 rfl _).trans (A_eq1 (V3 m ρ) c 4))).symm.trans (W4_main_arg7 m ρ c)

/-! ## The result -/

/-- The result buffer at the last boundary holds the network function of the launch contents of the arguments. -/
theorem result_eq (c : Dev nD) :
    W4 m ρ c (Proc.devRef .tc main_v25)
      = output (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)) := by
  refine (W4_arr m ρ c 5).trans ?_
  rw [Layer2.final (V3 m ρ) c, entry2_agg, entry2_h, entry2_wrel, entry2_bias, entry2_wroot]
  rfl

end Cert.KernelIdeal.Whole

end
-- ==== Proof.LibBroadcast.lean ====
/-
  BROADCASTS BY DIMENSION MAP, READ AT ONE ENTRY (general lemmas: any extents, any element type).

  * a vector `[E]` broadcast to the column `[E, 1]` along axis 0: the entry at `(e, 0)` is the vector's entry `e`;
  * a column `[N, 1]` broadcast to `[N, C]` along axes (0, 1): the entry at `(n, c)` is the column's entry at row `n`;
  * a vector `[C]` broadcast to the row `[1, C]` along axis 1 and then down `N` rows: the entry at `(n, c)` is the
    vector's entry `c`;
  * a rank-0 value broadcast over any shape: every entry is that value.
  (An operand axis of extent one is read at coordinate zero, so the extents that are not unit axes are assumed `≠ 1`.)
-/
import Idealize.ShloMosaic.Lib.Pipeline.Value
import Idealize.ShloMosaic.Lib.ValueIdx

noncomputable section

namespace Cert.Bcast

open Idealize.ShloMosaic Idealize.ShloMosaic.ValueIdx

/-- A vector as a column. -/
theorem col_apply {α : Type} {E : Nat} (hE : E ≠ 1) (x : (⟨1, ![E]⟩ : Shape).Idx → α)
    (h : (⟨1, ![E]⟩ : Shape).BroadcastsInDim ⟨2, ![E, 1]⟩ ![0]) (e : Fin E) (u : Fin 1) :
    broadcastInDim ⟨2, ![E, 1]⟩ ![0] h x (ix2 e u) = x (ix1 e) :=
  broadcastInDim_apply ![0] h x (ix2 e u) (ix1 e) (fun a => by
    match a with
    | ⟨0, _⟩ =>
      show e.val = if E = 1 then 0 else e.val
      rw [if_neg hE])

/-- A column repeated across `C` columns. -/
theorem rows_of_col_apply {α : Type} {N C : Nat} (hN : N ≠ 1) (x : (⟨2, ![N, 1]⟩ : Shape).Idx → α)
    (h : (⟨2, ![N, 1]⟩ : Shape).BroadcastsInDim ⟨2, ![N, C]⟩ ![0, 1]) (n : Fin N) (c : Fin C) :
    broadcastInDim ⟨2, ![N, C]⟩ ![0, 1] h x (ix2 n c) = x (ix2 n (0 : Fin 1)) :=
  broadcastInDim_apply ![0, 1] h x (ix2 n c) (ix2 n (0 : Fin 1)) (fun a => by
    match a with
    | ⟨0, _⟩ =>
      show n.val = if N = 1 then 0 else n.val
      rw [if_neg hN]
    | ⟨1, _⟩ =>
      show (0 : ℕ) = if (1 : ℕ) = 1 then 0 else c.val
      rw [if_pos rfl])

/-- A bias vector laid out as a row and repeated down `N` rows. -/
theorem bias_rows_apply {α : Type} {N C : Nat} (hC : C ≠ 1) (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![N, C]⟩ ![0, 1]) (n : Fin N) (c : Fin C) :
    broadcastInDim ⟨2, ![N, C]⟩ ![0, 1] h2 (broadcastInDim ⟨2, ![1, C]⟩ ![1] h1 b) (ix2 n c) = b (ix1 c) :=
  (broadcastInDim_apply ![0, 1] h2 _ (ix2 n c) (ix2 (0 : Fin 1) c) (fun a => by
    match a with
    | ⟨0, _⟩ =>
      show (0 : ℕ) = if (1 : ℕ) = 1 then 0 else n.val
      rw [if_pos rfl]
    | ⟨1, _⟩ =>
      show c.val = if C = 1 then 0 else c.val
      rw [if_neg hC])).trans
  (broadcastInDim_apply ![1] h1 b (ix2 (0 : Fin 1) c) (ix1 c) (fun a => by
    match a with
    | ⟨0, _⟩ =>
      show c.val = if C = 1 then 0 else c.val
      rw [if_neg hC]))

/-- A rank-0 value broadcast over a shape. -/
theorem scalar_apply {α : Type} {s : Shape} (x : (⟨0, ![]⟩ : Shape).Idx → α)
    (h : (⟨0, ![]⟩ : Shape).BroadcastsInDim s ![]) (i : s.Idx) :
    broadcastInDim s ![] h x i = x ix0 :=
  broadcastInDim_apply (s := ⟨0, ![]⟩) ![] h x i ix0 (fun a => a.elim0)

end Cert.Bcast

end
-- ==== Proof.Reference.lean ====
/-
  The reference's result is the network function of its arguments.

  Each of its two layers adds the bias between the two products, (agg · W_relᵀ + b) + x · W_rootᵀ, and the first
  is followed by max(·, 0) against a zero broadcast from a scalar; read at one entry and with the bias moved
  past the second product (addition of extended reals is commutative and associative) each is the layer
  specification's entry. The aggregations in front of the layers are the same host operations the kernel's
  program applies, kept as they are.
-/
import proofs.«115870_j17781164605885_2_alg».proof.Proof.Gen.KernelIdeal
import proofs.«115870_j17781164605885_2_alg».proof.Proof.Gen.ReferenceIdeal.Run
import proofs.«115870_j17781164605885_2_alg».proof.Proof.Network
import proofs.«115870_j17781164605885_2_alg».proof.Proof.LibLayerOps
import proofs.«115870_j17781164605885_2_alg».proof.Proof.LibBroadcast

noncomputable section

open scoped BigOperators

namespace Cert.ReferenceIdeal.RefValue

open Idealize.ShloMosaic Idealize.ShloMosaic.TcCoe Idealize.ShloMosaic.ValueIdx Idealize.SL.Sem
open Cert.ReferenceIdeal Cert.ReferenceIdeal.Facts₀ Cert.GConv

/-- The first layer's products are plain rows-by-columns products. -/
theorem plainA : PlainDot.IsPlain dot_S100000x20_S20x16_S100000x16_1_0_0_1_n_n := ⟨rfl, rfl, rfl, rfl, rfl, rfl⟩

/-- So are the second layer's. -/
theorem plainB : PlainDot.IsPlain dot_S100000x16_S16x1_S100000x1_1_0_0_1_n_n := ⟨rfl, rfl, rfl, rfl, rfl, rfl⟩

/-- The first layer and its rectifier, as the reference writes them, are the rectified layer. -/
theorem layer1_eq (agg x : FVec Ideal S100000x20 .f32) (wrel wroot : FVec Ideal S16x20 .f32) (b : FVec Ideal S16 .f32) :
    maximumf (addf (addf (Host.dotGeneral dot_S100000x20_S20x16_S100000x16_1_0_0_1_n_n none agg
          (transpose S20x16 [1, 0] wrel transposes_S16x20_S20x16_1_0))
        (broadcastInDim S100000x16 ![0, 1] bcast_S1x16_S100000x16_0_1 (broadcastInDim S1x16 ![1] bcast_S16_S1x16_1 b)))
      (Host.dotGeneral dot_S100000x20_S20x16_S100000x16_1_0_0_1_n_n none x
        (transpose S20x16 [1, 0] wroot transposes_S16x20_S20x16_1_0)))
      (broadcastInDim S100000x16 ![] bcast_S_S100000x16 (constant (F := Ideal) S_ .f32 0x00000000#32))
    = affineRelu agg x wrel wroot b := by
  funext i
  obtain ⟨n, c, rfl⟩ : ∃ (n : Fin 100000) (c : Fin 16), i = ix2 n c := ⟨i 0, i 1, eq_ix2 i⟩
  simp only [maximumf_apply, addf_apply]
  rw [LayerOps.dotGeneral_transposed_apply plainA, LayerOps.dotGeneral_transposed_apply plainA,
    LayerOps.bias_bcast_rows, Bcast.scalar_apply, affineRelu_apply, bias_between]
  rfl

/-- The second layer, as the reference writes it, is the layer. -/
theorem layer2_eq (agg x : FVec Ideal S100000x16 .f32) (wrel wroot : FVec Ideal S1x16 .f32) (b : FVec Ideal S1 .f32) :
    addf (addf (Host.dotGeneral dot_S100000x16_S16x1_S100000x1_1_0_0_1_n_n none agg
          (transpose S16x1 [1, 0] wrel transposes_S1x16_S16x1_1_0))
        (broadcastInDim S100000x1 ![0, 1] bcast_S1x1_S100000x1_0_1 (broadcastInDim S1x1 ![1] bcast_S1_S1x1_1 b)))
      (Host.dotGeneral dot_S100000x16_S16x1_S100000x1_1_0_0_1_n_n none x
        (transpose S16x1 [1, 0] wroot transposes_S1x16_S16x1_1_0))
    = affine agg x wrel wroot b := by
  funext i
  obtain ⟨n, c, rfl⟩ : ∃ (n : Fin 100000) (c : Fin 1), i = ix2 n c := ⟨i 0, i 1, eq_ix2 i⟩
  simp only [addf_apply]
  rw [LayerOps.dotGeneral_transposed_apply plainB, LayerOps.dotGeneral_transposed_apply plainB,
    LayerOps.bias_bcast_rows, affine_apply, bias_between]
  rfl

/-- The reference's result term is the network function of the launch contents of its arguments. -/
theorem result_eq (m : (ℓ : Loc nD τ sig) → Buf (Elt Ideal) ℓ) (c : Dev nD) :
    Value.res_main_v40 m c
      = output (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Value.res_main_v40
  refine (layer2_eq _ _ _ _ _).trans ?_
  rw [layer1_eq]
  rfl

end Cert.ReferenceIdeal.RefValue

end
-- ==== Proof.lean ====
/-
  A two-layer graph convolution: the Pallas kernel program against its jnp reference.

  Both programs compute, for node features x (100000 × 20) and an edge list (2 × 3200000),
      h   = max(agg(x) · W_rel1ᵀ + x · W_root1ᵀ + b_rel1, 0),      out = agg(h) · W_rel2ᵀ + h · W_root2ᵀ + b_rel2,
  where agg sums, into each destination node's row, the rows gathered at the edges' source nodes. Both leave the
  gather and the scatter-add to the same host operations. The kernel program runs each affine step as a
  pipelined call over ten blocks of 10000 rows, adding the bias last, its products' operands rounded to bf16 (the
  identity on the extended reals); the reference multiplies whole arrays and adds the bias between the two
  products. Entry by entry the two are the same sums, and the bias moves past the second product because
  addition of extended reals is commutative and associative — no finiteness of the inputs is used.

  The three frames are the generated ones (the reference's is its generated run with the result dropped); the
  idealization rewrote nothing, so `preserves` is trivial; `algebraic` states both runs' results as the one
  network function (Proof/Network.lean) of the shared arguments.
-/
import proofs.«115870_j17781164605885_2_alg».proof.Defs
import proofs.«115870_j17781164605885_2_alg».proof.Proof.Gen.Kernel
import proofs.«115870_j17781164605885_2_alg».proof.Proof.Gen.Kernel.Skeleton
import proofs.«115870_j17781164605885_2_alg».proof.Proof.Gen.Kernel.Launch
import proofs.«115870_j17781164605885_2_alg».proof.Proof.Gen.Kernel.Points
import proofs.«115870_j17781164605885_2_alg».proof.Proof.Gen.Kernel.Frame
import proofs.«115870_j17781164605885_2_alg».proof.Proof.Gen.KernelIdeal
import proofs.«115870_j17781164605885_2_alg».proof.Proof.Gen.KernelIdeal.Skeleton
import proofs.«115870_j17781164605885_2_alg».proof.Proof.Gen.KernelIdeal.Launch
import proofs.«115870_j17781164605885_2_alg».proof.Proof.Gen.KernelIdeal.Points
import proofs.«115870_j17781164605885_2_alg».proof.Proof.Gen.KernelIdeal.Frame
import proofs.«115870_j17781164605885_2_alg».proof.Proof.Gen.ReferenceIdeal
import proofs.«115870_j17781164605885_2_alg».proof.Proof.Gen.Pre_finite_inputs
import proofs.«115870_j17781164605885_2_alg».proof.Proof.Gen.ReferenceIdeal.Run
import proofs.«115870_j17781164605885_2_alg».proof.Proof.KernelRun
import proofs.«115870_j17781164605885_2_alg».proof.Proof.KernelValue
import proofs.«115870_j17781164605885_2_alg».proof.Proof.Reference
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel's result array ends at the network function of its arguments (the four segments walked
    from the launch memory), the reference's at the same function of its own arguments, which agree. -/
theorem algebraic : Cert.algebraic_KernelIdeal_ReferenceIdeal := by
  intro m ρ m' ρ' _ hagree
  refine ⟨fun c => Cert.GConv.output
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Whole.result_eq m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.ReferenceIdeal.RefValue.result_eq m' c, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
